-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 88
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel program's run with its RESULT named.  The program is eight segments: three stretches of host
  operations (the edge lists with their self-loops, the degrees and their inverse square roots, the per-edge weights),
  the first row-tiled matrix product, two stretches (gather, weight, scatter-add, bias, relu), the second row-tiled
  product, and the last stretch (gather, weight, scatter-add, bias).  The buffer contents at each boundary are the
  fold `W0 … W8` of the generated frame; every weakly fair execution ends with every unscoped buffer at `W8`, in
  particular the result buffer, and with the six argument arrays as launched.
-/
import proofs.«173247_j1511828488915_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W8`, and the argument arrays end as launched. -/
theorem run : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.Layers.lean ====
/-
  The graph-convolution glue that both programs apply around their two dense transforms, as pure functions of arrays.
  From the edge list `e` (2 × 800000 node numbers): the source and destination lists with one self-loop per node
  appended (`srcOf`, `dstOf`); a node number read as an index, negative numbers counted from the end (`wrapIdx`); the
  degree of a node as the number of edges that point to it, its inverse square root where the degree is positive and
  zero elsewhere (`invSqrtDeg`); the weight of an edge as the product of that quantity at its two ends (`edgeWeight`).
  One layer gathers the transformed features at every edge's source, scales each row by the edge's weight, sums the
  rows of every destination, and adds the bias; the first layer also clamps at zero from below (`layer1`), the second does
  not (`layer2`).  Nothing here is opened by the proof: the two programs are shown to apply these same functions to equal
  arguments.
-/
import proofs.«173247_j1511828488915_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The edges' sources followed by every node once. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations followed by every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number as an index: a negative one has the node count added. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The number of edges pointing to each node. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32)) (broadcastInDim S850000x1 ![0] bcast_S850000_S850000x1_0 dst) (broadcastInDim S850000 ![] bcast_S_S850000 (constant (F := F) S_ .f32 0x3F800000#32))

/-- The inverse square root of a node's degree where the degree is positive, zero elsewhere. -/
def invSqrtDeg (dst : (⟨S850000, .i32⟩ : BufTy).Contents (Elt F)) : (⟨S50000, .f32⟩ : BufTy).Contents (Elt F) :=
  select (cmpf .ogt (degree (F := F) dst) (broadcastInDim S50000 ![] bcast_S_S50000 (constant (F := F) S_ .f32 0x00000000#32))) (Host.rsqrt (degree (F := F) dst)) (broadcastInDim S50000 ![] bcast_S_S50000 (id (constant (F := F) S_ .f32 0x00000000#32)))

/-- The weight of every edge: the product of `invSqrtDeg` at its source and at its destination. -/
def edgeWeight (src dst : (⟨S850000, .i32⟩ : BufTy).Contents (Elt F)) : (⟨S850000, .f32⟩ : BufTy).Contents (Elt F) :=
  mulf (Host.gather gather_S50000_S850000x1_S850000_n_0_n_n_0_1_1 (invSqrtDeg (F := F) dst) (broadcastInDim S850000x1 ![0] bcast_S850000_S850000x1_0 (wrapIdx (F := F) src))) (Host.gather gather_S50000_S850000x1_S850000_n_0_n_n_0_1_1 (invSqrtDeg (F := F) dst) (broadcastInDim S850000x1 ![0] bcast_S850000_S850000x1_0 (wrapIdx (F := F) dst)))

/-- The edge weights as a column. -/
def weightCol (src dst : (⟨S850000, .i32⟩ : BufTy).Contents (Elt F)) : (⟨S850000x1, .f32⟩ : BufTy).Contents (Elt F) :=
  broadcastInDim S850000x1 ![0] bcast_S850000_S850000x1_0 (edgeWeight (F := F) src dst)

/-- The first layer after its dense transform `h`: gather at the sources, scale by the weights, sum into the
    destinations, add the bias, clamp at zero from below. -/
def layer1 (src dst : (⟨S850000, .i32⟩ : BufTy).Contents (Elt F)) (wcol : (⟨S850000x1, .f32⟩ : BufTy).Contents (Elt F))
    (h : (⟨S50000x256, .f32⟩ : BufTy).Contents (Elt F)) (b : (⟨S256, .f32⟩ : BufTy).Contents (Elt F)) : (⟨S50000x256, .f32⟩ : BufTy).Contents (Elt F) :=
  maximumf (addf (Host.scatterAdd scatter_S50000x256_S850000x1_S850000x256_1_0_0_1 (broadcastInDim S50000x256 ![] bcast_S_S50000x256 (constant (F := F) S_ .f32 0x00000000#32)) (broadcastInDim S850000x1 ![0] bcast_S850000_S850000x1_0 dst) (mulf (Host.gather gather_S50000x256_S850000x1_S850000x256_1_0_n_n_0_1_1256 h (broadcastInDim S850000x1 ![0] bcast_S850000_S850000x1_0 (wrapIdx (F := F) src))) (broadcastInDim S850000x256 ![0, 1] bcast_S850000x1_S850000x256_0_1 wcol))) (broadcastInDim S50000x256 ![0, 1] bcast_S1x256_S50000x256_0_1 (broadcastInDim S1x256 ![1] bcast_S256_S1x256_1 b))) (broadcastInDim S50000x256 ![] bcast_S_S50000x256 (constant (F := F) S_ .f32 0x00000000#32))

/-- The second layer after its dense transform `h`: gather, scale, sum, add the bias. -/
def layer2 (src dst : (⟨S850000, .i32⟩ : BufTy).Contents (Elt F)) (wcol : (⟨S850000x1, .f32⟩ : BufTy).Contents (Elt F))
    (h : (⟨S50000x128, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrapIdx (F := F) src))) (broadcastInDim S850000x128 ![0, 1] bcast_S850000x1_S850000x128_0_1 wcol))) (broadcastInDim S50000x128 ![0, 1] bcast_S1x128_S50000x128_0_1 (broadcastInDim S1x128 ![1] bcast_S128_S1x128_1 b))

end Cert.Gcn

end
-- ==== Proof.Eval.lean ====
/-
  Reading a buffer after a stretch of host operations, in two passes: the library's one-pass simplification rewrites
  every operation's result wherever congruence reaches; what it leaves — results under the piece list of a concatenation,
  which a congruence cannot enter because the pieces' shapes are tied to the concatenation's side condition — a short
  loop of plain rewrites finishes.
-/
import Idealize.ShloMosaic.Lib.StableHlo.Run

namespace Cert.Gcn

open Idealize.ShloMosaic.StableHlo

/-- The operations' result lemmas as plain rewrites, repeated until none applies. -/
macro "results_by_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Cert.Gcn
-- ==== Proof.KernelStages.lean ====
/-
  The kernel program's stretches of host operations, each as a function of the buffer contents it is run from.
  Before the first row-tiled product: the edge lists with their self-loops, and the edge weights as a column
  (`srcOf`, `dstOf`, `weightCol`).  Between the two products: the first layer's glue (`layer1`) applied to the
  first product's array.  After the second product: the second layer's glue (`layer2`).  These are the functions the
  reference program applies; and every stretch leaves the buffers it does not write as it found them.
-/
import proofs.«173247_j1511828488915_1_alg».proof.Proof.Gen.KernelIdeal.Launch
import proofs.«173247_j1511828488915_1_alg».proof.Proof.Layers
import proofs.«173247_j1511828488915_1_alg».proof.Proof.Eval
import Idealize.ShloMosaic.Lib.StableHlo.Run

noncomputable section

namespace Cert.KernelIdeal.Stages

open Cert.KernelIdeal Cert.KernelIdeal.Gen Cert.Gcn
open Idealize.ShloMosaic Idealize.ShloMosaic.TcCoe Idealize.SL.Sem Idealize.ShloMosaic.StableHlo

variable {F : FTy → Type} [FloatOps F]

/-! ## Before the first product -/

theorem prep_src (W : Valuation τ sig (Elt F)) :
    after hostOps0_2 (after hostOps0_1 (after hostOps0 W)) (Proc.devRef .tc main_v3) = srcOf (F := F) (W (Proc.devRef .tc main_arg1)) := by
  simp only [hostOps0, hostOps0_1, hostOps0_2]
  after_results
  rfl

theorem prep_dst (W : Valuation τ sig (Elt F)) :
    after hostOps0_2 (after hostOps0_1 (after hostOps0 W)) (Proc.devRef .tc main_v6) = dstOf (F := F) (W (Proc.devRef .tc main_arg1)) := by
  simp only [hostOps0, hostOps0_1, hostOps0_2]
  after_results
  rfl

theorem prep_wcol (W : Valuation τ sig (Elt F)) :
    after hostOps0_2 (after hostOps0_1 (after hostOps0 W)) (Proc.devRef .tc main_v30) = weightCol (F := F) (srcOf (F := F) (W (Proc.devRef .tc main_arg1))) (dstOf (F := F) (W (Proc.devRef .tc main_arg1))) := by
  simp only [hostOps0, hostOps0_1, hostOps0_2]
  after_results_simp
  results_by_rw
  rfl

theorem prep_keeps_main_arg0 (W : Valuation τ sig (Elt F)) : after hostOps0_2 (after hostOps0_1 (after hostOps0 W)) (Proc.devRef .tc main_arg0) = W (Proc.devRef .tc main_arg0) := by
  simp only [hostOps0, hostOps0_1, hostOps0_2]
  after_results
theorem prep_keeps_main_arg2 (W : Valuation τ sig (Elt F)) : after hostOps0_2 (after hostOps0_1 (after hostOps0 W)) (Proc.devRef .tc main_arg2) = W (Proc.devRef .tc main_arg2) := by
  simp only [hostOps0, hostOps0_1, hostOps0_2]
  after_results
theorem prep_keeps_main_arg3 (W : Valuation τ sig (Elt F)) : after hostOps0_2 (after hostOps0_1 (after hostOps0 W)) (Proc.devRef .tc main_arg3) = W (Proc.devRef .tc main_arg3) := by
  simp only [hostOps0, hostOps0_1, hostOps0_2]
  after_results
theorem prep_keeps_main_arg4 (W : Valuation τ sig (Elt F)) : after hostOps0_2 (after hostOps0_1 (after hostOps0 W)) (Proc.devRef .tc main_arg4) = W (Proc.devRef .tc main_arg4) := by
  simp only [hostOps0, hostOps0_1, hostOps0_2]
  after_results
theorem prep_keeps_main_arg5 (W : Valuation τ sig (Elt F)) : after hostOps0_2 (after hostOps0_1 (after hostOps0 W)) (Proc.devRef .tc main_arg5) = W (Proc.devRef .tc main_arg5) := by
  simp only [hostOps0, hostOps0_1, hostOps0_2]
  after_results

/-! ## Between the two products -/

theorem layer1_eq (W : Valuation τ sig (Elt F)) :
    after hostOps1_1 (after hostOps1 W) (Proc.devRef .tc main_v47) = layer1 (F := F) (W (Proc.devRef .tc main_v3)) (W (Proc.devRef .tc main_v6)) (W (Proc.devRef .tc main_v30)) (W (Proc.devRef .tc main_v31)) (W (Proc.devRef .tc main_arg3)) := by
  simp only [hostOps1, hostOps1_1]
  after_results_simp
  rfl

theorem layer1_keeps_main_v3 (W : Valuation τ sig (Elt F)) : after hostOps1_1 (after hostOps1 W) (Proc.devRef .tc main_v3) = W (Proc.devRef .tc main_v3) := by
  simp only [hostOps1, hostOps1_1]
  after_results
theorem layer1_keeps_main_v6 (W : Valuation τ sig (Elt F)) : after hostOps1_1 (after hostOps1 W) (Proc.devRef .tc main_v6) = W (Proc.devRef .tc main_v6) := by
  simp only [hostOps1, hostOps1_1]
  after_results
theorem layer1_keeps_main_v30 (W : Valuation τ sig (Elt F)) : after hostOps1_1 (after hostOps1 W) (Proc.devRef .tc main_v30) = W (Proc.devRef .tc main_v30) := by
  simp only [hostOps1, hostOps1_1]
  after_results
theorem layer1_keeps_main_arg4 (W : Valuation τ sig (Elt F)) : after hostOps1_1 (after hostOps1 W) (Proc.devRef .tc main_arg4) = W (Proc.devRef .tc main_arg4) := by
  simp only [hostOps1, hostOps1_1]
  after_results
theorem layer1_keeps_main_arg5 (W : Valuation τ sig (Elt F)) : after hostOps1_1 (after hostOps1 W) (Proc.devRef .tc main_arg5) = W (Proc.devRef .tc main_arg5) := by
  simp only [hostOps1, hostOps1_1]
  after_results

/-! ## After the second product -/

theorem layer2_eq (W : Valuation τ sig (Elt F)) :
    after hostOps2 W (Proc.devRef .tc main_v63) = layer2 (F := F) (W (Proc.devRef .tc main_v3)) (W (Proc.devRef .tc main_v6)) (W (Proc.devRef .tc main_v30)) (W (Proc.devRef .tc main_v48)) (W (Proc.devRef .tc main_arg5)) := by
  simp only [hostOps2]
  after_results_simp
  rfl

end Cert.KernelIdeal.Stages

end
-- ==== Proof.MatProd.lean ====
/-
  The product of two matrices over the extended reals, entry by entry: entry (r, c) of `x · w` is the sum over the
  inner coordinate `k` of `x (r, k) · w (k, c)`.  Both programs compute their two dense transforms as such products:
  the reference as one whole product, the kernel one tile of 2000 rows at a time.
-/
import Idealize.ShloMosaic.Lib.ValueIdx
import Idealize.ShloMosaic.PureOps.Ideal.Laws

noncomputable section

namespace Cert.Gcn

open Idealize.ShloMosaic Idealize.ShloMosaic.ValueIdx

/-- Entry (r, c) of the product of an `M × K` matrix with a `K × N` one. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) ⟨(i 0).val, idx2_lt0 i⟩ k) * w (ix2 (n0 := K) (n1 := N) k ⟨(i 1).val, idx2_lt1 i⟩)

theorem matProd_apply {M K N : Nat} (x : (⟨2, ![M, K]⟩ : Shape).Idx → EReal) (w : (⟨2, ![K, N]⟩ : Shape).Idx → EReal)
    (r : Fin M) (c : Fin N) :
    matProd x w (ix2 r c) = ∑ k : Fin K, x (ix2 r k) * w (ix2 k c) := rfl

end Cert.Gcn

end
-- ==== Proof.RowTiles0.lean ====
/-
  The first dense transform, tile by tile.  The kernel walks 25 grid points; at point `t` it loads rows
  `2000·t … 2000·t + 1999` of the left matrix (50000 × 512) and the whole right matrix (512 × 256), multiplies them on
  the matrix unit into a zero accumulator, and writes the 2000 × 256 tile back as rows `2000·t …` of the result.
  Entry (p, q) of a tile is the sum over `k` of (row `2000·t + p`, column `k`) of the left matrix times (row `k`,
  column `q`) of the right one, which is entry (`2000·t + p`, `q`) of the whole product; the 25 tiles cover every row, so the
  result array ends holding the whole product.  No rounding is involved: on the extended reals the narrowing of the
  operands to bf16 is the identity.
-/
import proofs.«173247_j1511828488915_1_alg».proof.Proof.Gen.KernelIdeal.Frame
import proofs.«173247_j1511828488915_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.RowTiles

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-! ## One tile of the first product -/

/-! ### The operand indices of the tile's contraction, coordinate by coordinate -/

theorem lhs0_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs0_inner (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs0_inner (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs0_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Entry (p, q) of a tile: the sum over the 512 inner coordinates of the tile's row `p` against column `q`. -/
theorem tile0_apply (x : Vec Ideal S2000x512 .f32) (w : Vec Ideal S512x256 .f32) (p : Fin 2000) (q : Fin 256) :
    k0_pay1 (F := Ideal) x w (ix2 p q) = ∑ k : Fin 512, x (ix2 p k) * w (ix2 k q) := by
  unfold k0_pay1
  refine (Ideal.matmul_constant_zero_apply dot_S2000x512_S512x256_S2000x256_1_0_0_1_n_n none _ _ (ix2 p q)).trans ?_
  rw [← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k :=
    funext fun a => Fin.ext (by
      match a with
      | ⟨0, _⟩ => exact lhs0_row _ _
      | ⟨1, _⟩ => exact (lhs0_inner _ _).trans hk)
  have er : dot_S2000x512_S512x256_S2000x256_1_0_0_1_n_n.rhsIdx (ix2 p q) ((contrEquiv1 dot_S2000x512_S512x256_S2000x256_1_0_0_1_n_n 512 rfl rfl).symm k) = ix2 k q :=
    funext fun a => Fin.ext (by
      match a with
      | ⟨0, _⟩ => exact (rhs0_inner _ _).trans hk
      | ⟨1, _⟩ => exact rhs0_col _ _)
  rw [el, er]
  rfl

/-! ## From the tiles to the array -/

section Array

variable (V : (c : Dev nD) → (b : Ref sig .tc) → Buf (Elt Ideal) ((c : Thread nD τ).loc b))

/-- The printed index maps, decided over the 25 grid points: the left operand's and the result's tiles are tile
    `t` along the rows and the only tile along the columns; the right operand is one tile. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product of the two operand arrays as the region finds them. -/
theorem flushed0_eq (c : Dev nD) (t : Fin cfg0.N) :
    (dat0 V c).flushed 2 t = ((cfg0.win 2).blk t).view.read (Elt Ideal)
      (matProd (M := 50000) (K := 512) (N := 256) (V c main_arg0) (V c main_arg2)) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x256) origin2]
  obtain ⟨e0, e1, e2, e3, e4, e5⟩ := idx_facts0 t
  funext j
  obtain ⟨p, q, rfl⟩ : ∃ (p : Fin 2000) (q : Fin 256), j = ix2 p q := ⟨j 0, j 1, eq_ix2 j⟩
  refine (tile0_apply (iblk0 V c 0 t) (iblk0 V c 1 t) p q).trans ?_
  show _ = matProd (M := 50000) (K := 512) (N := 256) (V c main_arg0) (V c main_arg2) (((cfg0.win 2).blk t).view.emb (ix2 p q))
  unfold matProd
  refine Finset.sum_congr rfl fun k _ => ?_
  have hl : iblk0 V c 0 t (ix2 p k) = V c main_arg0 (ix2 (n0 := 50000) (n1 := 512) ⟨((((cfg0.win 2).blk t).view.emb (ix2 p q)) 0).val, idx2_lt0 _⟩ k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hr : iblk0 V c 1 t (ix2 k q) = V c main_arg2 (ix2 (n0 := 512) (n1 := 256) k ⟨((((cfg0.win 2).blk t).view.emb (ix2 p q)) 1).val, idx2_lt1 _⟩) := by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  rw [hl, hr]

/-- An index of the result array lies in point `t`'s tile iff each coordinate lies in the tile's range on its axis. -/
theorem mem_tile0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- Row `r` of the result lies in the tile of point `r / 2000`: the 25 tiles cover the array. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  have ht : (i 0).val / 2000 < cfg0.N := by show (i 0).val / 2000 < grid0.N; rw [hN]; omega
  refine ⟨⟨(i 0).val / 2000, ht⟩, flush0_2 _, ?_⟩
  rw [mem_tile0]
  obtain ⟨-, -, -, -, e4, e5⟩ := idx_facts0 ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e5]; omega

/-- After the region the result array holds the whole product of the two operand arrays as the region found them. -/
theorem product0 (c : Dev nD) :
    (dat0 V c).arrAt 2 cfg0.N = matProd (M := 50000) (K := 512) (N := 256) (V c main_arg0) (V c main_arg2) :=
  (dat0 V c).arrAt_eq_of_cover 2 _ (fun t _ => flushed0_eq V c t) (cover0)

end Array

end Cert.KernelIdeal.RowTiles

end
-- ==== Proof.RowTiles1.lean ====
/-
  The second dense transform, tile by tile, exactly as the first: at grid point `t` the kernel multiplies rows
  `2000·t … 2000·t + 1999` of the hidden features (50000 × 256) with the whole second weight matrix (256 × 128) into a
  zero accumulator and writes the 2000 × 128 tile back as rows `2000·t …` of the result; the 25 tiles cover the array,
  which therefore ends holding the whole product.
-/
import proofs.«173247_j1511828488915_1_alg».proof.Proof.Gen.KernelIdeal.Frame
import proofs.«173247_j1511828488915_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.RowTiles2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-! ## One tile of the second product -/

/-! ### The operand indices of the tile's contraction, coordinate by coordinate -/

theorem lhs1_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs1_inner (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs1_inner (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs1_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, q) of a tile: the sum over the 256 inner coordinates of the tile's row `p` against column `q` (the body's
    cast of the tile to its own shape is the identity). -/
theorem tile1_apply (x : Vec Ideal S2000x256 .f32) (w : Vec Ideal S256x128 .f32) (p : Fin 2000) (q : Fin 128) :
    k1_pay1 (F := Ideal) x w (ix2 p q) = ∑ k : Fin 256, x (ix2 p k) * w (ix2 k q) := by
  unfold k1_pay1
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k :=
    funext fun a => Fin.ext (by
      match a with
      | ⟨0, _⟩ => exact lhs1_row _ _
      | ⟨1, _⟩ => exact (lhs1_inner _ _).trans hk)
  have er : dot_S2000x256_S256x128_S2000x128_1_0_0_1_n_n.rhsIdx (ix2 p q) ((contrEquiv1 dot_S2000x256_S256x128_S2000x128_1_0_0_1_n_n 256 rfl rfl).symm k) = ix2 k q :=
    funext fun a => Fin.ext (by
      match a with
      | ⟨0, _⟩ => exact (rhs1_inner _ _).trans hk
      | ⟨1, _⟩ => exact rhs1_col _ _)
  rw [el, er]
  show shapeCast S2000x256 x shapeCasts_S2000x256_S2000x256 (ix2 p k) * w (ix2 k q) = x (ix2 p k) * w (ix2 k q)
  rw [shapeCast_self]

/-! ## From the tiles to the array -/

section Array

variable (V : (c : Dev nD) → (b : Ref sig .tc) → Buf (Elt Ideal) ((c : Thread nD τ).loc b))

/-- The printed index maps, decided over the 25 grid points: the left operand's and the result's tiles are tile
    `t` along the rows and the only tile along the columns; the right operand is one tile. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the whole product of the two operand arrays as the region finds them. -/
theorem flushed1_eq (c : Dev nD) (t : Fin cfg1.N) :
    (dat1 V c).flushed 2 t = ((cfg1.win 2).blk t).view.read (Elt Ideal)
      (matProd (M := 50000) (K := 256) (N := 128) (V c main_v47) (V c main_arg4)) := by
  show (cfg1.win 2).cut (grid1.coords t) ((dat1 V c).after 2 t) = _
  rw [after1_2]
  unfold out1_2
  rw [View.canon_unit_zero origin2]
  simp only [View.ld_unit_zero (S := S2000x256) origin2, View.ld_unit_zero (S := S256x128) origin2]
  obtain ⟨e0, e1, e2, e3, e4, e5⟩ := idx_facts1 t
  funext j
  obtain ⟨p, q, rfl⟩ : ∃ (p : Fin 2000) (q : Fin 128), j = ix2 p q := ⟨j 0, j 1, eq_ix2 j⟩
  refine (tile1_apply (iblk1 V c 0 t) (iblk1 V c 1 t) p q).trans ?_
  show _ = matProd (M := 50000) (K := 256) (N := 128) (V c main_v47) (V c main_arg4) (((cfg1.win 2).blk t).view.emb (ix2 p q))
  unfold matProd
  refine Finset.sum_congr rfl fun k _ => ?_
  have hl : iblk1 V c 0 t (ix2 p k) = V c main_v47 (ix2 (n0 := 50000) (n1 := 256) ⟨((((cfg1.win 2).blk t).view.emb (ix2 p q)) 0).val, idx2_lt0 _⟩ k) := by
    show V c main_v47 (((cfg1.win 0).blk t).view.emb (ix2 p k)) = _
    refine congrArg (V c main_v47) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * k.val = k.val; omega
  have hr : iblk1 V c 1 t (ix2 k q) = V c main_arg4 (ix2 (n0 := 256) (n1 := 128) k ⟨((((cfg1.win 2).blk t).view.emb (ix2 p q)) 1).val, idx2_lt1 _⟩) := by
    show V c main_arg4 (((cfg1.win 1).blk t).view.emb (ix2 k q)) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 128 + 1 * q.val = win1_2.index t (1 : Fin 2) * 128 + 1 * q.val; omega
  rw [hl, hr]

/-- An index of the result array lies in point `t`'s tile iff each coordinate lies in the tile's range on its axis. -/
theorem mem_tile1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Row `r` of the result lies in the tile of point `r / 2000`: the 25 tiles cover the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; rw [hN]; omega
  refine ⟨⟨(i 0).val / 2000, ht⟩, flush1_2 _, ?_⟩
  rw [mem_tile1]
  obtain ⟨-, -, -, -, e4, e5⟩ := idx_facts1 ⟨(i 0).val / 2000, ht⟩
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e5]; omega

/-- After the region the result array holds the whole product of the two operand arrays as the region found them. -/
theorem product1 (c : Dev nD) :
    (dat1 V c).arrAt 2 cfg1.N = matProd (M := 50000) (K := 256) (N := 128) (V c main_v47) (V c main_arg4) :=
  (dat1 V c).arrAt_eq_of_cover 2 _ (fun t _ => flushed1_eq V c t) (cover1)

end Array

end Cert.KernelIdeal.RowTiles2

end
-- ==== Proof.Spec.lean ====
/-
  The function both programs compute: a two-layer graph convolution.  With `src`, `dst` the edge lists (self-loops
  appended) and `wcol` the edge weights, the hidden features are `layer1 … (x · W₁) b₁` and the result is
  `layer2 … (hidden · W₂) b₂`, the products being whole matrix products over the extended reals.
-/
import proofs.«173247_j1511828488915_1_alg».proof.Proof.Layers
import proofs.«173247_j1511828488915_1_alg».proof.Proof.MatProd

noncomputable section

namespace Cert.Gcn

open Cert.ReferenceIdeal Idealize.ShloMosaic Idealize.ShloMosaic.TcCoe Idealize.SL.Sem

/-- The hidden features after the first layer. -/
def hidden (x : (⟨S50000x512, .f32⟩ : BufTy).Contents (Elt Ideal)) (e : (⟨S2x800000, .i32⟩ : BufTy).Contents (Elt Ideal))
    (w1 : (⟨S512x256, .f32⟩ : BufTy).Contents (Elt Ideal)) (b1 : (⟨S256, .f32⟩ : BufTy).Contents (Elt Ideal)) :
    (⟨S50000x256, .f32⟩ : BufTy).Contents (Elt Ideal) :=
  layer1 (F := Ideal) (srcOf (F := Ideal) e) (dstOf (F := Ideal) e) (weightCol (F := Ideal) (srcOf (F := Ideal) e) (dstOf (F := Ideal) e))
    (matProd (M := 50000) (K := 512) (N := 256) x w1) b1

/-- The two-layer graph convolution of the six arguments. -/
def gcn (x : (⟨S50000x512, .f32⟩ : BufTy).Contents (Elt Ideal)) (e : (⟨S2x800000, .i32⟩ : BufTy).Contents (Elt Ideal))
    (w1 : (⟨S512x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    (⟨S50000x128, .f32⟩ : BufTy).Contents (Elt Ideal) :=
  layer2 (F := Ideal) (srcOf (F := Ideal) e) (dstOf (F := Ideal) e) (weightCol (F := Ideal) (srcOf (F := Ideal) e) (dstOf (F := Ideal) e))
    (matProd (M := 50000) (K := 256) (N := 128) (hidden x e w1 b1) w2) b2

end Cert.Gcn

end
-- ==== Proof.KernelValue.lean ====
/-
  The idealized kernel program's result buffer holds the two-layer graph convolution of its arguments.  Walk the
  boundaries of the run.  At the first region's entry the edge lists, the weight column and the arguments are in place.
  The first region replaces the first product's array by the whole product `x · W₁` (its 25 row tiles) and touches nothing
  else; the next stretch turns it into the hidden features.  The second region does the same with `hidden · W₂`, and the
  last stretch applies the second layer's glue.
-/
import proofs.«173247_j1511828488915_1_alg».proof.Proof.Gen.KernelIdeal.Frame
import proofs.«173247_j1511828488915_1_alg».proof.Proof.KernelStages
import proofs.«173247_j1511828488915_1_alg».proof.Proof.RowTiles0
import proofs.«173247_j1511828488915_1_alg».proof.Proof.RowTiles1
import proofs.«173247_j1511828488915_1_alg».proof.Proof.Spec

set_option maxRecDepth 16384

noncomputable section

namespace Cert.KernelIdeal.Composed

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer at the last boundary is the graph convolution of the launch contents of the arguments. -/
theorem result_eq (c : Dev nD) :
    W8 m ρ c (Proc.devRef .tc main_v63)
      = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the first region's entry
  have s3 : W3 m ρ c (Proc.devRef .tc main_v3) = srcOf (F := Ideal) (m ((c : Thread nD τ).loc main_arg1)) := Stages.prep_src (W0 m ρ c)
  have d3 : W3 m ρ c (Proc.devRef .tc main_v6) = dstOf (F := Ideal) (m ((c : Thread nD τ).loc main_arg1)) := Stages.prep_dst (W0 m ρ c)
  have w3 : W3 m ρ c (Proc.devRef .tc main_v30) = weightCol (F := Ideal) (srcOf (F := Ideal) (m ((c : Thread nD τ).loc main_arg1))) (dstOf (F := Ideal) (m ((c : Thread nD τ).loc main_arg1))) := Stages.prep_wcol (W0 m ρ c)
  have x3 : W3 m ρ c (Proc.devRef .tc main_arg0) = (m ((c : Thread nD τ).loc main_arg0)) := Stages.prep_keeps_main_arg0 (W0 m ρ c)
  have m3 : W3 m ρ c (Proc.devRef .tc main_arg2) = (m ((c : Thread nD τ).loc main_arg2)) := Stages.prep_keeps_main_arg2 (W0 m ρ c)
  have b3 : W3 m ρ c (Proc.devRef .tc main_arg3) = (m ((c : Thread nD τ).loc main_arg3)) := Stages.prep_keeps_main_arg3 (W0 m ρ c)
  have n3 : W3 m ρ c (Proc.devRef .tc main_arg4) = (m ((c : Thread nD τ).loc main_arg4)) := Stages.prep_keeps_main_arg4 (W0 m ρ c)
  have c3 : W3 m ρ c (Proc.devRef .tc main_arg5) = (m ((c : Thread nD τ).loc main_arg5)) := Stages.prep_keeps_main_arg5 (W0 m ρ c)
  -- the first region's exit: the product's array holds the whole product, everything else is as entered
  have p4 : W4 m ρ c (Proc.devRef .tc main_v31) = matProd (M := 50000) (K := 512) (N := 256) (m ((c : Thread nD τ).loc main_arg0)) (m ((c : Thread nD τ).loc main_arg2)) :=
    (W4_arr m ρ c 2).trans ((RowTiles.product0 (V3 m ρ) c).trans (by
      rw [show V3 m ρ c main_arg0 = (m ((c : Thread nD τ).loc main_arg0)) from x3, show V3 m ρ c main_arg2 = (m ((c : Thread nD τ).loc main_arg2)) from m3]))
  have s4 := (W4_of_ne m ρ c main_v3 (by decide)).trans s3
  have d4 := (W4_of_ne m ρ c main_v6 (by decide)).trans d3
  have w4 := (W4_of_ne m ρ c main_v30 (by decide)).trans w3
  have b4 := (W4_of_ne m ρ c main_arg3 (by decide)).trans b3
  have n4 := (W4_of_ne m ρ c main_arg4 (by decide)).trans n3
  have c4 := (W4_of_ne m ρ c main_arg5 (by decide)).trans c3
  -- the second region's entry: the hidden features
  have h6 : W6 m ρ c (Proc.devRef .tc main_v47) = hidden (m ((c : Thread nD τ).loc main_arg0)) (m ((c : Thread nD τ).loc main_arg1)) (m ((c : Thread nD τ).loc main_arg2)) (m ((c : Thread nD τ).loc main_arg3)) :=
    (Stages.layer1_eq (W4 m ρ c)).trans (by rw [s4, d4, w4, p4, b4]; rfl)
  have s6 := (Stages.layer1_keeps_main_v3 (W4 m ρ c)).trans s4
  have d6 := (Stages.layer1_keeps_main_v6 (W4 m ρ c)).trans d4
  have w6 := (Stages.layer1_keeps_main_v30 (W4 m ρ c)).trans w4
  have n6 := (Stages.layer1_keeps_main_arg4 (W4 m ρ c)).trans n4
  have c6 := (Stages.layer1_keeps_main_arg5 (W4 m ρ c)).trans c4
  -- the second region's exit
  have p7 : W7 m ρ c (Proc.devRef .tc main_v48) = matProd (M := 50000) (K := 256) (N := 128) (hidden (m ((c : Thread nD τ).loc main_arg0)) (m ((c : Thread nD τ).loc main_arg1)) (m ((c : Thread nD τ).loc main_arg2)) (m ((c : Thread nD τ).loc main_arg3))) (m ((c : Thread nD τ).loc main_arg4)) :=
    (W7_arr m ρ c 2).trans ((RowTiles2.product1 (V6 m ρ) c).trans (by
      rw [show V6 m ρ c main_v47 = _ from h6, show V6 m ρ c main_arg4 = (m ((c : Thread nD τ).loc main_arg4)) from n6]))
  have s7 := (W7_of_ne m ρ c main_v3 (by decide)).trans s6
  have d7 := (W7_of_ne m ρ c main_v6 (by decide)).trans d6
  have w7 := (W7_of_ne m ρ c main_v30 (by decide)).trans w6
  have c7 := (W7_of_ne m ρ c main_arg5 (by decide)).trans c6
  -- the last stretch
  exact (Stages.layer2_eq (W7 m ρ c)).trans (by rw [s7, d7, w7, p7, c7]; rfl)

end Cert.KernelIdeal.Composed

end
-- ==== Proof.RefValue.lean ====
/-
  The reference program's result as the layer functions of its arguments.  Its 83 host operations fall into three
  stretches around the two whole matrix products: the edge lists and weights (40 operations), the first layer's glue
  (22), the second layer's (19).  Each stretch, run from ANY buffer contents, leaves in the buffers that later
  operations read the corresponding function of what it found (`srcOf`, `dstOf`, `edgeWeight`; `layer1`; `layer2`) and
  leaves the buffers it does not write as they were; chaining the five pieces gives the result buffer as
  `layer2 … (h₁ · W₂) …` with `h₁ = layer1 … (x · W₁) …`.  At the ideal values a whole `dot_general` is `matProd`.
-/
import proofs.«173247_j1511828488915_1_alg».proof.Proof.RefRun
import proofs.«173247_j1511828488915_1_alg».proof.Proof.Layers
import proofs.«173247_j1511828488915_1_alg».proof.Proof.Spec
import proofs.«173247_j1511828488915_1_alg».proof.Proof.MatProd
import proofs.«173247_j1511828488915_1_alg».proof.Proof.Eval
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ValueP Cert.Gcn
open Idealize.ShloMosaic Idealize.ShloMosaic.TcCoe Idealize.SL.Sem Idealize.ShloMosaic.StableHlo Idealize.ShloMosaic.ValueIdx

variable {F : FTy → Type} [FloatOps F]

/-! ## The program's operations, stretch by stretch -/

/-- The edge lists with their self-loops, the degrees, the edge weights. -/
abbrev prepOps : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first dense transform: the whole product of the features with the first weight matrix. -/
abbrev dense1 : HloOp τ sig (Elt F) :=
  binary main_arg0 main_arg2 main_v30 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F))

/-- The first layer's glue: gather, scale, scatter-add, bias, clamp. -/
abbrev layer1Ops : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- The second dense transform. -/
abbrev dense2 : HloOp τ sig (Elt F) :=
  binary main_v47 main_arg4 main_v48 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))

/-- The second layer's glue: gather, scale, scatter-add, bias. -/
abbrev layer2Ops : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem ops_split : (ops : List (HloOp τ sig (Elt F))) = prepOps ++ dense1 :: (layer1Ops ++ dense2 :: layer2Ops) := rfl

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (W : Valuation τ sig (Elt F)) :
    after ops W = after layer2Ops (dense2.result (after layer1Ops (dense1.result (after prepOps W)))) := by
  rw [ops_split, after_append, after_cons, after_append, after_cons]

/-! ## What each stretch leaves, from any contents -/

theorem prep_src (W : Valuation τ sig (Elt F)) :
    after prepOps W (Proc.devRef .tc main_v3) = srcOf (F := F) (W (Proc.devRef .tc main_arg1)) := by
  after_results
  rfl

theorem prep_dst (W : Valuation τ sig (Elt F)) :
    after prepOps W (Proc.devRef .tc main_v6) = dstOf (F := F) (W (Proc.devRef .tc main_arg1)) := by
  after_results
  rfl

theorem prep_weight (W : Valuation τ sig (Elt F)) :
    after prepOps W (Proc.devRef .tc main_v29) = edgeWeight (F := F) (srcOf (F := F) (W (Proc.devRef .tc main_arg1))) (dstOf (F := F) (W (Proc.devRef .tc main_arg1))) := by
  after_results_simp
  results_by_rw
  rfl

theorem prep_keeps_main_arg0 (W : Valuation τ sig (Elt F)) : after prepOps W (Proc.devRef .tc main_arg0) = W (Proc.devRef .tc main_arg0) := by
  after_results
theorem prep_keeps_main_arg2 (W : Valuation τ sig (Elt F)) : after prepOps W (Proc.devRef .tc main_arg2) = W (Proc.devRef .tc main_arg2) := by
  after_results
theorem prep_keeps_main_arg3 (W : Valuation τ sig (Elt F)) : after prepOps W (Proc.devRef .tc main_arg3) = W (Proc.devRef .tc main_arg3) := by
  after_results
theorem prep_keeps_main_arg4 (W : Valuation τ sig (Elt F)) : after prepOps W (Proc.devRef .tc main_arg4) = W (Proc.devRef .tc main_arg4) := by
  after_results
theorem prep_keeps_main_arg5 (W : Valuation τ sig (Elt F)) : after prepOps W (Proc.devRef .tc main_arg5) = W (Proc.devRef .tc main_arg5) := by
  after_results

/-! ### The first layer's stretch -/

theorem layer1_eq (W : Valuation τ sig (Elt F)) :
    after layer1Ops W (Proc.devRef .tc main_v47) = layer1 (F := F) (W (Proc.devRef .tc main_v3)) (W (Proc.devRef .tc main_v6)) ((broadcastInDim S850000x1 ![0] bcast_S850000_S850000x1_0 (W (Proc.devRef .tc main_v29)))) (W (Proc.devRef .tc main_v30)) (W (Proc.devRef .tc main_arg3)) := by
  after_results_simp
  rfl

theorem layer1_keeps_main_v3 (W : Valuation τ sig (Elt F)) : after layer1Ops W (Proc.devRef .tc main_v3) = W (Proc.devRef .tc main_v3) := by
  after_results
theorem layer1_keeps_main_v6 (W : Valuation τ sig (Elt F)) : after layer1Ops W (Proc.devRef .tc main_v6) = W (Proc.devRef .tc main_v6) := by
  after_results
theorem layer1_keeps_main_v29 (W : Valuation τ sig (Elt F)) : after layer1Ops W (Proc.devRef .tc main_v29) = W (Proc.devRef .tc main_v29) := by
  after_results
theorem layer1_keeps_main_arg4 (W : Valuation τ sig (Elt F)) : after layer1Ops W (Proc.devRef .tc main_arg4) = W (Proc.devRef .tc main_arg4) := by
  after_results
theorem layer1_keeps_main_arg5 (W : Valuation τ sig (Elt F)) : after layer1Ops W (Proc.devRef .tc main_arg5) = W (Proc.devRef .tc main_arg5) := by
  after_results

/-! ### The second layer's stretch -/

theorem layer2_eq (W : Valuation τ sig (Elt F)) :
    after layer2Ops W (Proc.devRef .tc main_v64) = layer2 (F := F) (W (Proc.devRef .tc main_v3)) (W (Proc.devRef .tc main_v6)) ((broadcastInDim S850000x1 ![0] bcast_S850000_S850000x1_0 (W (Proc.devRef .tc main_v29)))) (W (Proc.devRef .tc main_v48)) (W (Proc.devRef .tc main_arg5)) := by
  after_results_simp
  rfl

/-! ### The two whole products -/

theorem dense1_result (W : Valuation τ sig (Elt F)) :
    (dense1 (F := F)).result W (Proc.devRef .tc main_v30) = Host.dotGeneral dot_S50000x512_S512x256_S50000x256_1_0_0_1_n_n none (W (Proc.devRef .tc main_arg0)) (W (Proc.devRef .tc main_arg2)) := by
  rw [binary_result]
theorem dense1_keeps_main_v3 (W : Valuation τ sig (Elt F)) : (dense1 (F := F)).result W (Proc.devRef .tc main_v3) = W (Proc.devRef .tc main_v3) := by
  rw [binary_result_ne]; decide
theorem dense1_keeps_main_v6 (W : Valuation τ sig (Elt F)) : (dense1 (F := F)).result W (Proc.devRef .tc main_v6) = W (Proc.devRef .tc main_v6) := by
  rw [binary_result_ne]; decide
theorem dense1_keeps_main_v29 (W : Valuation τ sig (Elt F)) : (dense1 (F := F)).result W (Proc.devRef .tc main_v29) = W (Proc.devRef .tc main_v29) := by
  rw [binary_result_ne]; decide
theorem dense1_keeps_main_arg3 (W : Valuation τ sig (Elt F)) : (dense1 (F := F)).result W (Proc.devRef .tc main_arg3) = W (Proc.devRef .tc main_arg3) := by
  rw [binary_result_ne]; decide
theorem dense1_keeps_main_arg4 (W : Valuation τ sig (Elt F)) : (dense1 (F := F)).result W (Proc.devRef .tc main_arg4) = W (Proc.devRef .tc main_arg4) := by
  rw [binary_result_ne]; decide
theorem dense1_keeps_main_arg5 (W : Valuation τ sig (Elt F)) : (dense1 (F := F)).result W (Proc.devRef .tc main_arg5) = W (Proc.devRef .tc main_arg5) := by
  rw [binary_result_ne]; decide

theorem dense2_result (W : Valuation τ sig (Elt F)) :
    (dense2 (F := F)).result W (Proc.devRef .tc main_v48) = Host.dotGeneral dot_S50000x256_S256x128_S50000x128_1_0_0_1_n_n none (W (Proc.devRef .tc main_v47)) (W (Proc.devRef .tc main_arg4)) := by
  rw [binary_result]
theorem dense2_keeps_main_v3 (W : Valuation τ sig (Elt F)) : (dense2 (F := F)).result W (Proc.devRef .tc main_v3) = W (Proc.devRef .tc main_v3) := by
  rw [binary_result_ne]; decide
theorem dense2_keeps_main_v6 (W : Valuation τ sig (Elt F)) : (dense2 (F := F)).result W (Proc.devRef .tc main_v6) = W (Proc.devRef .tc main_v6) := by
  rw [binary_result_ne]; decide
theorem dense2_keeps_main_v29 (W : Valuation τ sig (Elt F)) : (dense2 (F := F)).result W (Proc.devRef .tc main_v29) = W (Proc.devRef .tc main_v29) := by
  rw [binary_result_ne]; decide
theorem dense2_keeps_main_arg5 (W : Valuation τ sig (Elt F)) : (dense2 (F := F)).result W (Proc.devRef .tc main_arg5) = W (Proc.devRef .tc main_arg5) := by
  rw [binary_result_ne]; decide

/-! ## At the ideal values a whole `dot_general` is the matrix product -/

theorem lhsW1_row (i : S50000x256.Idx) (q : dot_S50000x512_S512x256_S50000x256_1_0_0_1_n_n.contr.Idx) :
    (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch by decide), dif_pos (show (0 : Fin S50000x512.rank) ∈ dot_S50000x512_S512x256_S50000x256_1_0_0_1_n_n.lhsNonContracting by decide)]
  rfl
theorem lhsW1_inner (i : S50000x256.Idx) (q : dot_S50000x512_S512x256_S50000x256_1_0_0_1_n_n.contr.Idx) :
    (dot_S50000x512_S512x256_S50000x256_1_0_0_1_n_n.lhsIdx i q 1).val = (q ⟨0, by decide⟩).val :=
  dot_S50000x512_S512x256_S50000x256_1_0_0_1_n_n.lhsIdx_val_of_single rfl i q
theorem rhsW1_inner (i : S50000x256.Idx) (q : dot_S50000x512_S512x256_S50000x256_1_0_0_1_n_n.contr.Idx) :
    (dot_S50000x512_S512x256_S50000x256_1_0_0_1_n_n.rhsIdx i q 0).val = (q ⟨0, by decide⟩).val :=
  dot_S50000x512_S512x256_S50000x256_1_0_0_1_n_n.rhsIdx_val_of_single rfl i q
theorem rhsW1_col (i : S50000x256.Idx) (q : dot_S50000x512_S512x256_S50000x256_1_0_0_1_n_n.contr.Idx) :
    (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch by decide), dif_pos (show (1 : Fin S512x256.rank) ∈ dot_S50000x512_S512x256_S50000x256_1_0_0_1_n_n.rhsNonContracting by decide)]
  rfl

/-- At the ideal values the host's whole `dot_general` is the matrix product, entry by entry. -/
theorem whole1_eq (x : FVec Ideal S50000x512 .f32) (w : FVec Ideal S512x256 .f32) :
    Host.dotGeneral (F := Ideal) dot_S50000x512_S512x256_S50000x256_1_0_0_1_n_n none x w = matProd (M := 50000) (K := 512) (N := 256) x w := by
  funext i
  obtain ⟨r, c, rfl⟩ : ∃ (r : Fin 50000) (c : Fin 256), i = ix2 r c := ⟨i 0, i 1, eq_ix2 i⟩
  rw [matProd_apply]
  simp only [Host.dotGeneral]
  first | rw [Ideal.dotGeneral_apply] | rw [zero_add]
  rw [← Equiv.sum_comp (contrEquiv1 dot_S50000x512_S512x256_S50000x256_1_0_0_1_n_n 512 rfl rfl).symm]
  refine Finset.sum_congr rfl fun k _ => ?_
  have hk := contrEquiv1_symm_val dot_S50000x512_S512x256_S50000x256_1_0_0_1_n_n 512 rfl rfl k
  have el : dot_S50000x512_S512x256_S50000x256_1_0_0_1_n_n.lhsIdx (ix2 r c) ((contrEquiv1 dot_S50000x512_S512x256_S50000x256_1_0_0_1_n_n 512 rfl rfl).symm k) = ix2 r k :=
    funext fun a => Fin.ext (by
      match a with
      | ⟨0, _⟩ => exact lhsW1_row _ _
      | ⟨1, _⟩ => exact (lhsW1_inner _ _).trans hk)
  have er : dot_S50000x512_S512x256_S50000x256_1_0_0_1_n_n.rhsIdx (ix2 r c) ((contrEquiv1 dot_S50000x512_S512x256_S50000x256_1_0_0_1_n_n 512 rfl rfl).symm k) = ix2 k c :=
    funext fun a => Fin.ext (by
      match a with
      | ⟨0, _⟩ => exact (rhsW1_inner _ _).trans hk
      | ⟨1, _⟩ => exact rhsW1_col _ _)
  rw [el, er]

theorem lhsW2_row (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhsW2_inner (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem rhsW2_inner (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem rhsW2_col (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- At the ideal values the host's whole `dot_general` is the matrix product, entry by entry. -/
theorem whole2_eq (x : FVec Ideal S50000x256 .f32) (w : FVec Ideal S256x128 .f32) :
    Host.dotGeneral (F := Ideal) dot_S50000x256_S256x128_S50000x128_1_0_0_1_n_n none x w = matProd (M := 50000) (K := 256) (N := 128) x w := by
  funext i
  obtain ⟨r, c, rfl⟩ : ∃ (r : Fin 50000) (c : Fin 128), i = ix2 r c := ⟨i 0, i 1, eq_ix2 i⟩
  rw [matProd_apply]
  simp only [Host.dotGeneral]
  first | rw [Ideal.dotGeneral_apply] | rw [zero_add]
  rw [← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 r c) ((contrEquiv1 dot_S50000x256_S256x128_S50000x128_1_0_0_1_n_n 256 rfl rfl).symm k) = ix2 r k :=
    funext fun a => Fin.ext (by
      match a with
      | ⟨0, _⟩ => exact lhsW2_row _ _
      | ⟨1, _⟩ => exact (lhsW2_inner _ _).trans hk)
  have er : dot_S50000x256_S256x128_S50000x128_1_0_0_1_n_n.rhsIdx (ix2 r c) ((contrEquiv1 dot_S50000x256_S256x128_S50000x128_1_0_0_1_n_n 256 rfl rfl).symm k) = ix2 k c :=
    funext fun a => Fin.ext (by
      match a with
      | ⟨0, _⟩ => exact (rhsW2_inner _ _).trans hk
      | ⟨1, _⟩ => exact rhsW2_col _ _)
  rw [el, er]

/-! ## The result buffer -/

/-- The reference's result buffer after its 83 operations is the graph convolution of the launch contents of its
    arguments. -/
theorem result_eq (m : (ℓ : Loc nD τ sig) → Buf (Elt Ideal) ℓ) (c : Dev nD) :
    after (ops (F := Ideal)) (launchContents m c) (Proc.devRef .tc main_v64)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops, layer2_eq,
    dense2_keeps_main_v3, dense2_keeps_main_v6, dense2_keeps_main_v29, dense2_keeps_main_arg5, dense2_result,
    layer1_keeps_main_v3, layer1_keeps_main_v6, layer1_keeps_main_v29, layer1_keeps_main_arg4, layer1_keeps_main_arg5, layer1_eq,
    dense1_keeps_main_v3, dense1_keeps_main_v6, dense1_keeps_main_v29, dense1_keeps_main_arg3, dense1_keeps_main_arg4, dense1_keeps_main_arg5, dense1_result,
    prep_src, prep_dst, prep_weight, prep_keeps_main_arg0, prep_keeps_main_arg2, prep_keeps_main_arg3, prep_keeps_main_arg4, prep_keeps_main_arg5,
    whole1_eq, whole2_eq]
  rfl

end Cert.ReferenceIdeal.Stages

end
-- ==== Proof.lean ====
/-
  The certificate of a two-layer graph convolution: a Pallas kernel program (two row-tiled matrix products on the matrix
  unit, the sparse gather / scatter-add glue on the host) against a plain jnp reference (two whole `dot_general`s, the same
  glue).

  Frames.  The two kernel programs' frames are the generated ones.  The reference is a straight line of host operations:
  every weakly fair execution runs them in order and ends with the arguments untouched.

  Preservation.  The ideal pass rewrote nothing, so there is nothing to preserve.

  Equal results at the ideal values.  Both programs compute `gcn x e W₁ b₁ W₂ b₂` (Proof/Spec.lean): the edge lists, the
  degree normalisation and the two layers' gather / scale / scatter-add / bias (/ clamp) are the same host operations in
  both, applied to equal arrays; the only difference is how the two dense transforms are computed.  The reference forms
  each as one whole product, entry (r, c) the sum over `k` of `x (r, k) · w (k, c)`.  The kernel forms it 2000 rows at a
  time: entry (p, q) of tile `t` is the same sum for row `2000·t + p`, so the tile is rows `2000·t …` of the whole product,
  and the 25 tiles cover all 50000 rows.  The sums are the same sums term by term, in the same order, so no property of
  the extended reals beyond `0 + s = s` (the matrix unit's zero accumulator) is used, and the precondition is never opened.
-/
import proofs.«173247_j1511828488915_1_alg».proof.Defs
import proofs.«173247_j1511828488915_1_alg».proof.Proof.Gen.Kernel
import proofs.«173247_j1511828488915_1_alg».proof.Proof.Gen.Kernel.Frame
import proofs.«173247_j1511828488915_1_alg».proof.Proof.Gen.KernelIdeal
import proofs.«173247_j1511828488915_1_alg».proof.Proof.Gen.KernelIdeal.Frame
import proofs.«173247_j1511828488915_1_alg».proof.Proof.Gen.ReferenceIdeal
import proofs.«173247_j1511828488915_1_alg».proof.Proof.Gen.Pre_finite_inputs
import proofs.«173247_j1511828488915_1_alg».proof.Proof.KernelRun
import proofs.«173247_j1511828488915_1_alg».proof.Proof.KernelValue
import proofs.«173247_j1511828488915_1_alg».proof.Proof.RefRun
import proofs.«173247_j1511828488915_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read at the ideal values: no rewrite to account for. -/
theorem preserves : Cert.preserves_Kernel_KernelIdeal := trivial

/-- From memories that agree on the arguments both programs end with their result buffers at the graph convolution
    of those arguments. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Composed.result_eq m ρ c), (h c).2⟩)
    (Cert.KernelIdeal.Result.run (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Stages.result_eq m' c, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
